-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048 : Shape := ⟨1, ![2048]⟩
abbrev S512x2048 : Shape := ⟨2, ![512, 2048]⟩
abbrev S512 : Shape := ⟨1, ![512]⟩
abbrev S2048x512 : Shape := ⟨2, ![2048, 512]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048 : S_.BroadcastsInDim S2048 (![] : Fin 0 → Fin S2048.rank)
  reducesTo_S2048_S_d0 : S2048.ReducesTo [0] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_
  bcast_S_S2048x512 : S_.BroadcastsInDim S2048x512 (![] : Fin 0 → Fin S2048x512.rank)
  reducesTo_S2048x512_S_d0_1 : S2048x512.ReducesTo [0, 1] S_

variable [Facts]

def fn_part1 {F : FTy → Type} [FloatOps F] (main_arg4 : FVec F S512 .f32) (main_arg5 : FVec F S2048x512 .f32) (main_arg6 : FVec F S2048 .f32) (main_v13 : IVec S_ 1) (main_v16 : IVec S512x2048 1) : IVec S_ 1 :=
  let main_c_5 : IVec S_ 1 := constantI S_ 1 1#1
  let main_v17 : IVec S_ 1 := (fun x v => Host.reduce IntOp.andi x v reducesTo_S512x2048_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S2048x512 .f32 := Host.absf main_arg5
  let main_cst_8 : FVec F S_ .f32 := constant S_ .f32 0x7F800000#32
  let main_v25 : FVec F S2048x512 .f32 := broadcastInDim S2048x512 ![] bcast_S_S2048x512 main_cst_8
  let main_v26 : IVec S2048x512 1 := cmpf .olt main_v24 main_v25
  let main_c_9 : IVec S_ 1 := constantI S_ 1 1#1
  let main_v27 : IVec S_ 1 := (fun x v => Host.reduce IntOp.andi x v reducesTo_S2048x512_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S4x4096x2048 .f32) (main_arg1 : FVec F S2048 .f32) (main_arg2 : FVec F S2048 .f32) (main_arg3 : FVec F S512x2048 .f32) (main_arg4 : FVec F S512 .f32) (main_arg5 : FVec F S2048x512 .f32) (main_arg6 : FVec F S2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S512x2048 .f32 := Host.absf main_arg3
  let main_cst_4 : FVec F S_ .f32 := constant S_ .f32 0x7F800000#32
  let main_v15 : FVec F S512x2048 .f32 := broadcastInDim S512x2048 ![] bcast_S_S512x2048 main_cst_4
  let main_v16 : IVec S512x2048 1 := cmpf .olt main_v14 main_v15
  fn_part1 (F := F) main_arg4 main_arg5 main_arg6 main_v13 main_v16
-- ==== Kernel.lean ====
abbrev S4x4096x2048 : Shape := ⟨3, ![4, 4096, 2048]⟩
abbrev S2048 : Shape := ⟨1, ![2048]⟩
abbrev S512x2048 : Shape := ⟨2, ![512, 2048]⟩
abbrev S512 : Shape := ⟨1, ![512]⟩
abbrev S2048x512 : Shape := ⟨2, ![2048, 512]⟩
abbrev S16384x2048 : Shape := ⟨2, ![16384, 2048]⟩
abbrev S1x2048 : Shape := ⟨2, ![1, 2048]⟩
abbrev S1x512 : Shape := ⟨2, ![1, 512]⟩
abbrev S512x1 : Shape := ⟨2, ![512, 1]⟩
abbrev S512x512 : Shape := ⟨2, ![512, 512]⟩

abbrev nBuf : Space → Nat
  | .hbm => 18
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048, .f32⟩
  | .hbm, ⟨3, _⟩ => ⟨S512x2048, .f32⟩
  | .hbm, ⟨4, _⟩ => ⟨S512, .f32⟩
  | .hbm, ⟨5, _⟩ => ⟨S2048x512, .f32⟩
  | .hbm, ⟨6, _⟩ => ⟨S2048, .f32⟩
  | .hbm, ⟨7, _⟩ => ⟨S16384x2048, .f32⟩
  | .hbm, ⟨8, _⟩ => ⟨S2048x512, .f32⟩
  | .hbm, ⟨9, _⟩ => ⟨S2048x512, .bf16⟩
  | .hbm, ⟨10, _⟩ => ⟨S512x2048, .f32⟩
  | .hbm, ⟨11, _⟩ => ⟨S512x2048, .bf16⟩
  | .hbm, ⟨12, _⟩ => ⟨S1x2048, .f32⟩
  | .hbm, ⟨13, _⟩ => ⟨S1x2048, .f32⟩
  | .hbm, ⟨14, _⟩ => ⟨S1x512, .f32⟩
  | .hbm, ⟨15, _⟩ => ⟨S1x2048, .f32⟩
  | .hbm, ⟨16, _⟩ => ⟨S16384x2048, .f32⟩
  | .hbm, ⟨17, _⟩ => ⟨S4x4096x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S2048x512, .bf16⟩
  | .local _ .vmem, ⟨5, _⟩ => ⟨S1x512, .f32⟩
  | .local _ .vmem, ⟨6, _⟩ => ⟨S512x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S4x4096x2048_S16384x2048 : S4x4096x2048.ShapeCasts S16384x2048
  transposes_S512x2048_S2048x512_1_0 : S512x2048.Transposes [1, 0] S2048x512
  bitsLt_bf16_f32 : FTy.bits .bf16 < FTy.bits .f32
  transposes_S2048x512_S512x2048_1_0 : S2048x512.Transposes [1, 0] S512x2048
  shapeCasts_S2048_S1x2048 : S2048.ShapeCasts S1x2048
  shapeCasts_S512_S1x512 : S512.ShapeCasts S1x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S512 : S512x2048.Reduces [1] S512
  shapeCasts_S512_S512x1 : S512.ShapeCasts S512x1
  broadcasts_S512x1_S512x2048 : S512x1.Broadcasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  shapeCasts_S16384x2048_S4x4096x2048 : S16384x2048.ShapeCasts S4x4096x2048
  dot_S512x2048_S2048x512_S512x512_1_0_0_1_n_n_wf : DotDims.WF S512x2048 S2048x512 S512x512 [1] [0] [0] [1] [] []
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x512.size a
  hwx0_3 : ∀ i : grid0.Coords, EltTy.bits .bf16 = 32 ∨ (Rect.block (s := S2048x512) S2048x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S512x2048.size a
  hwx0_5 : ∀ i : grid0.Coords, EltTy.bits .bf16 = 32 ∨ (Rect.block (s := S512x2048) S512x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x2048.size a ≤ S16384x2048.size a
  hwx0_7 : ∀ i : grid0.Coords, EltTy.bits .f32 = 32 ∨ (Rect.block (s := S16384x2048) S512x2048.size (cc0_transform_7 i) (hinb0_7 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S512x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S512x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S2048 : Shape := ⟨1, ![2048]⟩
abbrev S512x2048 : Shape := ⟨2, ![512, 2048]⟩
abbrev S512 : Shape := ⟨1, ![512]⟩
abbrev S2048x512 : Shape := ⟨2, ![2048, 512]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x512 : Shape := ⟨3, ![4, 4096, 512]⟩
abbrev S1x1x512 : Shape := ⟨3, ![1, 1, 512]⟩

abbrev nBuf : Space → Nat
  | .hbm => 48
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048, .f32⟩
  | .hbm, ⟨3, _⟩ => ⟨S512x2048, .f32⟩
  | .hbm, ⟨4, _⟩ => ⟨S512, .f32⟩
  | .hbm, ⟨5, _⟩ => ⟨S2048x512, .f32⟩
  | .hbm, ⟨6, _⟩ => ⟨S2048, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x2048, .f32⟩
  | .hbm, ⟨14, _⟩ => ⟨S4x4096x2048, .f32⟩
  | .hbm, ⟨15, _⟩ => ⟨S4x4096x2048, .f32⟩
  | .hbm, ⟨16, _⟩ => ⟨S_, .f32⟩
  | .hbm, ⟨17, _⟩ => ⟨S4x4096, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x2048, .f32⟩
  | .hbm, ⟨23, _⟩ => ⟨S4x4096x2048, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S4x4096x1, .f32⟩
  | .hbm, ⟨28, _⟩ => ⟨S4x4096x2048, .f32⟩
  | .hbm, ⟨29, _⟩ => ⟨S4x4096x2048, .f32⟩
  | .hbm, ⟨30, _⟩ => ⟨S1x1x2048, .f32⟩
  | .hbm, ⟨31, _⟩ => ⟨S4x4096x2048, .f32⟩
  | .hbm, ⟨32, _⟩ => ⟨S4x4096x2048, .f32⟩
  | .hbm, ⟨33, _⟩ => ⟨S1x1x2048, .f32⟩
  | .hbm, ⟨34, _⟩ => ⟨S4x4096x2048, .f32⟩
  | .hbm, ⟨35, _⟩ => ⟨S4x4096x2048, .f32⟩
  | .hbm, ⟨36, _⟩ => ⟨S4x4096x512, .f32⟩
  | .hbm, ⟨37, _⟩ => ⟨S1x1x512, .f32⟩
  | .hbm, ⟨38, _⟩ => ⟨S4x4096x512, .f32⟩
  | .hbm, ⟨39, _⟩ => ⟨S4x4096x512, .f32⟩
  | .hbm, ⟨40, _⟩ => ⟨S_, .f32⟩
  | .hbm, ⟨41, _⟩ => ⟨S4x4096x512, .f32⟩
  | .hbm, ⟨42, _⟩ => ⟨S4x4096x512, .f32⟩
  | .hbm, ⟨43, _⟩ => ⟨S4x4096x2048, .f32⟩
  | .hbm, ⟨44, _⟩ => ⟨S1x1x2048, .f32⟩
  | .hbm, ⟨45, _⟩ => ⟨S4x4096x2048, .f32⟩
  | .hbm, ⟨46, _⟩ => ⟨S4x4096x2048, .f32⟩
  | .hbm, ⟨47, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call0_cst : Ref sig .tc := ⟨.hbm, 40, rfl⟩
abbrev main_call0_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  reducesTo_S4x4096x2048_S4x4096_d2 : S4x4096x2048.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x2048_0_1_2 : S4x4096x1.BroadcastsInDim S4x4096x2048 (![0, 1, 2] : Fin 3 → Fin S4x4096x2048.rank)
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  bcast_S512_S1x1x512_2 : S512.BroadcastsInDim S1x1x512 (![2] : Fin 1 → Fin S1x1x512.rank)
  bcast_S1x1x512_S4x4096x512_0_1_2 : S1x1x512.BroadcastsInDim S4x4096x512 (![0, 1, 2] : Fin 3 → Fin S4x4096x512.rank)
  bcast_S_S4x4096x512 : S_.BroadcastsInDim S4x4096x512 (![] : Fin 0 → Fin S4x4096x512.rank)
  dot_S4x4096x2048_S512x2048_S4x4096x512_2_1_01_0_n_n_wf : DotDims.WF S4x4096x2048 S512x2048 S4x4096x512 [2] [1] [0, 1] [0] [] []
  dot_S4x4096x512_S2048x512_S4x4096x2048_2_1_01_0_n_n_wf : DotDims.WF S4x4096x512 S2048x512 S4x4096x2048 [2] [1] [0, 1] [0] [] []

variable [Facts₀]

def dot_S4x4096x2048_S512x2048_S4x4096x512_2_1_01_0_n_n : DotDims S4x4096x2048 S512x2048 S4x4096x512 where
  lhsContracting := [2]
  rhsContracting := [1]
  lhsNonContracting := [0, 1]
  rhsNonContracting := [0]
  lhsBatch := []
  rhsBatch := []
  wf := dot_S4x4096x2048_S512x2048_S4x4096x512_2_1_01_0_n_n_wf
def dot_S4x4096x512_S2048x512_S4x4096x2048_2_1_01_0_n_n : DotDims S4x4096x512 S2048x512 S4x4096x2048 where
  lhsContracting := [2]
  rhsContracting := [1]
  lhsNonContracting := [0, 1]
  rhsNonContracting := [0]
  lhsBatch := []
  rhsBatch := []
  wf := dot_S4x4096x512_S2048x512_S4x4096x2048_2_1_01_0_n_n_wf

class Facts : Prop extends Facts₀ where

variable [Facts]
-- ==== Proof.Spec.lean ====
/-
  The adapter layer as mathematics on the extended reals, one row at a time.

  A row `v` of 2048 numbers is normalised (its mean removed, scaled by the reciprocal square root of its variance
  plus a small constant, then scaled by `γ` and shifted by `β` entry by entry), projected down to 512 numbers by
  the rows of `Wd` with a bias, clipped below at zero, projected back up to 2048 numbers by the rows of `Wu` with a
  bias, and added to `v` itself.  Nothing in this computation mixes two rows.

  Both programs divide their sums by the same word for 2048 and add the same word for the small constant, and clip
  against the same zero word; the three words are kept as they are and never evaluated.
-/
import Idealize.ShloMosaic.PureOps.Ideal
import Idealize.ShloMosaic.PureOps.Ideal.Laws
import Idealize.ShloMosaic.Lib.ValueIdx

noncomputable section

namespace Cert.Adapter

open Idealize.ShloMosaic Idealize.ShloMosaic.ValueIdx

/-- The row width, 2048, as the word both programs divide a row's sum by. -/
def width : EReal := Ideal.ofBits .f32 0x45000000#32
/-- The small constant both programs add to the variance before the reciprocal square root. -/
def eps : EReal := Ideal.ofBits .f32 0x3727C5AC#32
/-- The zero both programs clip the hidden layer against. -/
def floor0 : EReal := Ideal.ofBits .f32 0x00000000#32

/-- The mean of a row. -/
def mean (v : Fin 2048 → EReal) : EReal := Ideal.div (∑ k : Fin 2048, v k) width

/-- The variance of a row: the mean of the squared distances to the row's mean. -/
def var (v : Fin 2048 → EReal) : EReal :=
  Ideal.div (∑ k : Fin 2048, (v k - mean v) * (v k - mean v)) width

/-- The normalised row: centred, scaled to unit variance, then scaled by `γ` and shifted by `β`. -/
def norm (v γ β : Fin 2048 → EReal) (k : Fin 2048) : EReal :=
  (v k - mean v) * Ideal.rsqrt (var v + eps) * γ k + β k

/-- The hidden layer: the normalised row against row `j` of `Wd`, plus the bias, clipped below at zero. -/
def hidden (v γ β : Fin 2048 → EReal) (Wd : Fin 512 → Fin 2048 → EReal) (bd : Fin 512 → EReal) (j : Fin 512) : EReal :=
  max ((∑ k : Fin 2048, norm v γ β k * Wd j k) + bd j) floor0

/-- The layer's output at column `d`: the row's own entry plus the hidden layer against row `d` of `Wu`, plus
    the bias. -/
def out (v γ β : Fin 2048 → EReal) (Wd : Fin 512 → Fin 2048 → EReal) (bd : Fin 512 → EReal)
    (Wu : Fin 2048 → Fin 512 → EReal) (bu : Fin 2048 → EReal) (d : Fin 2048) : EReal :=
  v d + ((∑ j : Fin 512, hidden v γ β Wd bd j * Wu d j) + bu d)

/-- The output depends on its seven arguments, and on the column, only through their values. -/
theorem out_congr {v v' γ γ' β β' : Fin 2048 → EReal} {Wd Wd' : Fin 512 → Fin 2048 → EReal} {bd bd' : Fin 512 → EReal}
    {Wu Wu' : Fin 2048 → Fin 512 → EReal} {bu bu' : Fin 2048 → EReal}
    (hv : ∀ k, v k = v' k) (hγ : ∀ k, γ k = γ' k) (hβ : ∀ k, β k = β' k) (hWd : ∀ j k, Wd j k = Wd' j k)
    (hbd : ∀ j, bd j = bd' j) (hWu : ∀ d j, Wu d j = Wu' d j) (hbu : ∀ d, bu d = bu' d) {d d' : Fin 2048} (hd : d = d') :
    out v γ β Wd bd Wu bu d = out v' γ' β' Wd' bd' Wu' bu' d' := by
  subst hd
  obtain rfl : v = v' := funext hv
  obtain rfl : γ = γ' := funext hγ
  obtain rfl : β = β' := funext hβ
  obtain rfl : Wd = Wd' := funext fun j => funext (hWd j)
  obtain rfl : bd = bd' := funext hbd
  obtain rfl : Wu = Wu' := funext fun d => funext (hWu d)
  obtain rfl : bu = bu' := funext hbu
  rfl

/-- The layer over a batch of 4 sequences of 4096 rows, with the parameters in the shapes the caller passes them:
    entry `(b, s, d)` is the layer's output at column `d` for row `(b, s)`. -/
def layer (x : (⟨3, ![4, 4096, 2048]⟩ : Shape).Idx → EReal) (γ β : (⟨1, ![2048]⟩ : Shape).Idx → EReal)
    (Wd : (⟨2, ![512, 2048]⟩ : Shape).Idx → EReal) (bd : (⟨1, ![512]⟩ : Shape).Idx → EReal)
    (Wu : (⟨2, ![2048, 512]⟩ : Shape).Idx → EReal) (bu : (⟨1, ![2048]⟩ : Shape).Idx → EReal)
    (b : Fin 4) (s : Fin 4096) (d : Fin 2048) : EReal :=
  out (fun k => x (ix3 b s k)) (fun k => γ (ix1 k)) (fun k => β (ix1 k)) (fun j k => Wd (ix2 j k)) (fun j => bd (ix1 j))
    (fun d' j => Wu (ix2 d' j)) (fun d' => bu (ix1 d')) d

/-- The same layer over `R` rows laid out as a matrix, with the parameters as the tiled program holds them: the
    two weight matrices transposed, the three vectors and the down bias as one-row matrices.  Entry `(r, d)` is the
    layer's output at column `d` for row `r`. -/
def rows {R : ℕ} (X : (⟨2, ![R, 2048]⟩ : Shape).Idx → EReal) (γ β : (⟨2, ![1, 2048]⟩ : Shape).Idx → EReal)
    (WdT : (⟨2, ![2048, 512]⟩ : Shape).Idx → EReal) (bd : (⟨2, ![1, 512]⟩ : Shape).Idx → EReal)
    (WuT : (⟨2, ![512, 2048]⟩ : Shape).Idx → EReal) (bu : (⟨2, ![1, 2048]⟩ : Shape).Idx → EReal)
    (r : Fin R) (d : Fin 2048) : EReal :=
  out (fun k => X (ix2 r k)) (fun k => γ (ix2 (0 : Fin 1) k)) (fun k => β (ix2 (0 : Fin 1) k)) (fun j k => WdT (ix2 k j))
    (fun j => bd (ix2 (0 : Fin 1) j)) (fun d' j => WuT (ix2 j d')) (fun d' => bu (ix2 (0 : Fin 1) d')) d

end Cert.Adapter

end
-- ==== Proof.LibKeepdims.lean ====
/-
  Two layout readers for a reduction kept as a column.

  A sum over the last axis with the reduced axis kept yields a column: a vector of length `a` viewed as an
  `a × 1` matrix.  That column is then spread back across the `b` columns of an `a × b` matrix, so that every
  entry of row `p` meets the one number computed for row `p`.  Both steps only move data; read at an index they
  are the operand at the row's coordinate.
-/
import Idealize.ShloMosaic.Lib.Pipeline.Value
import Idealize.ShloMosaic.Lib.ValueIdx

namespace Idealize.ShloMosaic.ValueIdx

variable {α : Type}

/-- A vector of length `a` viewed as an `a × 1` column reads, at `(i, u)`, the vector at `i`, whatever the
    unit coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column spread over the `b` columns of an `a × b` matrix reads, at `(p, c)`, the column's entry
    for row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Tile.lean ====
/-
  What one tile of the kernel computes, entry by entry.

  A tile is 512 rows of 2048 numbers.  Its arithmetic is the layer of `Spec.lean` applied to each of the 512 rows
  on its own: a row's sum is taken along the row and kept as a column, the column is spread back over the row's
  2048 entries, and the two projections are matrix products whose entry `(p, j)` is the sum over the shared axis of
  row `p` of the left factor against column `j` of the right factor.  Narrowing a value to sixteen bits before a
  product is the identity on the extended reals.

  The stages below name the intermediate matrices (row sums, means, centred rows, variances, reciprocal
  deviations, normalised rows, hidden layer, output) and read each at an entry; the last two theorems say that the
  kernel's two payloads are these stages of the blocks it loads.
-/
import proofs.«109701_j18923625906221_2_alg».proof.Proof.Gen.KernelIdeal.Skeleton
import proofs.«109701_j18923625906221_2_alg».proof.Proof.Spec
import proofs.«109701_j18923625906221_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.Adapter.Tile

open Cert.KernelIdeal Cert.KernelIdeal.Gen Idealize.ShloMosaic Idealize.ShloMosaic.ValueIdx Cert.Adapter

/-! ## The first half of a row: sums along it -/

/-- Each row's sum, kept as a column. -/
def rowSum (v : FVec Ideal S512x2048 .f32) : FVec Ideal S512x1 .f32 :=
  shapeCast S512x1 (multiReduction .add [1] S512 v 0x00000000#32 reduces_S512x2048_S512 (.inl rfl) rfl) shapeCasts_S512_S512x1

/-- The column's entry for row `p` is the sum of the row's 2048 entries. -/
theorem rowSum_apply (v : FVec Ideal S512x2048 .f32) (p : Fin 512) (u : Fin 1) :
    rowSum v (ix2 p u) = ∑ k : Fin 2048, v (ix2 p k) := by
  unfold rowSum
  rw [shapeCast_a_a1_apply]
  refine (Ideal.multiReduction_add_single v 0x00000000#32 reduces_S512x2048_S512 (.inl rfl) rfl (ix1 p)).trans ?_
  exact Finset.sum_congr rfl fun k _ => congrArg v (funext fun a => Fin.ext (by
    match a with
    | ⟨0, _⟩ => rfl
    | ⟨1, _⟩ => rfl))

/-- Each row's mean, as a column. -/
def rowMean (v : FVec Ideal S512x2048 .f32) : FVec Ideal S512x1 .f32 :=
  divf (rowSum v) (broadcast S512x1 (Scalar.ofBits .f32 0x45000000#32))

theorem rowMean_apply (v : FVec Ideal S512x2048 .f32) (p : Fin 512) (u : Fin 1) :
    rowMean v (ix2 p u) = mean (fun k => v (ix2 p k)) := by
  show Ideal.div (rowSum v (ix2 p u)) (Ideal.ofBits .f32 0x45000000#32) = _
  rw [rowSum_apply]
  rfl

/-- Every entry less its row's mean. -/
def centred (v : FVec Ideal S512x2048 .f32) : FVec Ideal S512x2048 .f32 :=
  subf v (broadcastTo S512x2048 (rowMean v) broadcasts_S512x1_S512x2048)

theorem centred_apply (v : FVec Ideal S512x2048 .f32) (p : Fin 512) (q : Fin 2048) :
    centred v (ix2 p q) = v (ix2 p q) - mean (fun k => v (ix2 p k)) := by
  show v (ix2 p q) - broadcastTo S512x2048 (rowMean v) broadcasts_S512x1_S512x2048 (ix2 p q) = _
  rw [broadcastTo_a1_ab_apply, rowMean_apply]

/-- Each row's variance, as a column. -/
def rowVar (v : FVec Ideal S512x2048 .f32) : FVec Ideal S512x1 .f32 :=
  divf (rowSum (mulf (centred v) (centred v))) (broadcast S512x1 (Scalar.ofBits .f32 0x45000000#32))

theorem rowVar_apply (v : FVec Ideal S512x2048 .f32) (p : Fin 512) (u : Fin 1) :
    rowVar v (ix2 p u) = var (fun k => v (ix2 p k)) := by
  show Ideal.div (rowSum (mulf (centred v) (centred v)) (ix2 p u)) (Ideal.ofBits .f32 0x45000000#32) = _
  rw [rowSum_apply]
  unfold var
  refine congrArg (fun s => Ideal.div s width) (Finset.sum_congr rfl fun k _ => ?_)
  show centred v (ix2 p k) * centred v (ix2 p k) = _
  rw [centred_apply]

/-- The reciprocal square root of each row's variance plus the small constant, as a column. -/
def invStd (v : FVec Ideal S512x2048 .f32) : FVec Ideal S512x1 .f32 :=
  rsqrt (addf (rowVar v) (broadcast S512x1 (Scalar.ofBits .f32 0x3727C5AC#32)))

theorem invStd_apply (v : FVec Ideal S512x2048 .f32) (p : Fin 512) (u : Fin 1) :
    invStd v (ix2 p u) = Ideal.rsqrt (var (fun k => v (ix2 p k)) + eps) := by
  show Ideal.rsqrt (rowVar v (ix2 p u) + Ideal.ofBits .f32 0x3727C5AC#32) = _
  rw [rowVar_apply]
  rfl

/-- The normalised rows: centred, scaled by the row's reciprocal deviation, then by `g` and shifted by `b`
    column by column. -/
def normed (v : FVec Ideal S512x2048 .f32) (g b : FVec Ideal S1x2048 .f32) : FVec Ideal S512x2048 .f32 :=
  addf (mulf (mulf (centred v) (broadcastTo S512x2048 (invStd v) broadcasts_S512x1_S512x2048))
    (broadcastTo S512x2048 g broadcasts_S1x2048_S512x2048)) (broadcastTo S512x2048 b broadcasts_S1x2048_S512x2048)

theorem normed_apply (v : FVec Ideal S512x2048 .f32) (g b : FVec Ideal S1x2048 .f32) (p : Fin 512) (q : Fin 2048) :
    normed v g b (ix2 p q)
      = norm (fun k => v (ix2 p k)) (fun k => g (ix2 (0 : Fin 1) k)) (fun k => b (ix2 (0 : Fin 1) k)) q := by
  show centred v (ix2 p q) * broadcastTo S512x2048 (invStd v) broadcasts_S512x1_S512x2048 (ix2 p q)
      * broadcastTo S512x2048 g broadcasts_S1x2048_S512x2048 (ix2 p q)
      + broadcastTo S512x2048 b broadcasts_S1x2048_S512x2048 (ix2 p q) = _
  rw [centred_apply, broadcastTo_a1_ab_apply, invStd_apply, broadcastTo_1b_ab_apply, broadcastTo_1b_ab_apply]
  rfl

/-! ## The two matrix products, read as sums over the shared axis -/

theorem down_lhs_0 (i : S512x512.Idx) (q : dot_S512x2048_S2048x512_S512x512_1_0_0_1_n_n.contr.Idx) :
    (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
theorem down_lhs_1 (i : S512x512.Idx) (q : dot_S512x2048_S2048x512_S512x512_1_0_0_1_n_n.contr.Idx) :
    (dot_S512x2048_S2048x512_S512x512_1_0_0_1_n_n.lhsIdx i q 1).val = (q ⟨0, by decide⟩).val :=
  dot_S512x2048_S2048x512_S512x512_1_0_0_1_n_n.lhsIdx_val_of_single rfl i q
theorem down_rhs_0 (i : S512x512.Idx) (q : dot_S512x2048_S2048x512_S512x512_1_0_0_1_n_n.contr.Idx) :
    (dot_S512x2048_S2048x512_S512x512_1_0_0_1_n_n.rhsIdx i q 0).val = (q ⟨0, by decide⟩).val :=
  dot_S512x2048_S2048x512_S512x512_1_0_0_1_n_n.rhsIdx_val_of_single rfl i q
theorem down_rhs_1 (i : S512x512.Idx) (q : dot_S512x2048_S2048x512_S512x512_1_0_0_1_n_n.contr.Idx) :
    (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl

/-- The down projection into a zero accumulator: entry `(p, j)` is row `p` of the left factor against column `j`
    of the right one, summed over the 2048 shared coordinates. -/
theorem down_apply (l : FVec Ideal S512x2048 .bf16) (r : FVec Ideal S2048x512 .bf16) (p j : Fin 512) :
    matmul dot_S512x2048_S2048x512_S512x512_1_0_0_1_n_n none l r (constant S512x512 .f32 0x00000000#32) (ix2 p j)
      = ∑ k : Fin 2048, l (ix2 p k) * r (ix2 k j) := by
  simp only [matmul]
  rw [Ideal.matmul_constant_zero_apply, ← Equiv.sum_comp (contrEquiv1 dot_S512x2048_S2048x512_S512x512_1_0_0_1_n_n 2048 rfl rfl).symm]
  refine Finset.sum_congr rfl fun k _ => ?_
  have hk := contrEquiv1_symm_val dot_S512x2048_S2048x512_S512x512_1_0_0_1_n_n 2048 rfl rfl k
  have el : dot_S512x2048_S2048x512_S512x512_1_0_0_1_n_n.lhsIdx (ix2 p j) ((contrEquiv1 dot_S512x2048_S2048x512_S512x512_1_0_0_1_n_n 2048 rfl rfl).symm k) = ix2 p k := funext fun a => Fin.ext (by
    match a with
    | ⟨0, _⟩ => exact down_lhs_0 _ _
    | ⟨1, _⟩ => exact (down_lhs_1 _ _).trans hk)
  have er : dot_S512x2048_S2048x512_S512x512_1_0_0_1_n_n.rhsIdx (ix2 p j) ((contrEquiv1 dot_S512x2048_S2048x512_S512x512_1_0_0_1_n_n 2048 rfl rfl).symm k) = ix2 k j := funext fun a => Fin.ext (by
    match a with
    | ⟨0, _⟩ => exact (down_rhs_0 _ _).trans hk
    | ⟨1, _⟩ => exact down_rhs_1 _ _)
  rw [el, er]

theorem up_lhs_0 (i : S512x2048.Idx) (q : dot_S512x512_S512x2048_S512x2048_1_0_0_1_n_n.contr.Idx) :
    (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
theorem up_lhs_1 (i : S512x2048.Idx) (q : dot_S512x512_S512x2048_S512x2048_1_0_0_1_n_n.contr.Idx) :
    (dot_S512x512_S512x2048_S512x2048_1_0_0_1_n_n.lhsIdx i q 1).val = (q ⟨0, by decide⟩).val :=
  dot_S512x512_S512x2048_S512x2048_1_0_0_1_n_n.lhsIdx_val_of_single rfl i q
theorem up_rhs_0 (i : S512x2048.Idx) (q : dot_S512x512_S512x2048_S512x2048_1_0_0_1_n_n.contr.Idx) :
    (dot_S512x512_S512x2048_S512x2048_1_0_0_1_n_n.rhsIdx i q 0).val = (q ⟨0, by decide⟩).val :=
  dot_S512x512_S512x2048_S512x2048_1_0_0_1_n_n.rhsIdx_val_of_single rfl i q
theorem up_rhs_1 (i : S512x2048.Idx) (q : dot_S512x512_S512x2048_S512x2048_1_0_0_1_n_n.contr.Idx) :
    (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

/-- The up projection into a zero accumulator: entry `(p, d)` is row `p` of the left factor against column `d` of
    the right one, summed over the 512 shared coordinates. -/
theorem up_apply (l : FVec Ideal S512x512 .bf16) (r : FVec Ideal S512x2048 .bf16) (p : Fin 512) (d : Fin 2048) :
    matmul dot_S512x512_S512x2048_S512x2048_1_0_0_1_n_n none l r (constant S512x2048 .f32 0x00000000#32) (ix2 p d)
      = ∑ j : Fin 512, l (ix2 p j) * r (ix2 j d) := by
  simp only [matmul]
  rw [Ideal.matmul_constant_zero_apply, ← Equiv.sum_comp (contrEquiv1 dot_S512x512_S512x2048_S512x2048_1_0_0_1_n_n 512 rfl rfl).symm]
  refine Finset.sum_congr rfl fun k _ => ?_
  have hk := contrEquiv1_symm_val dot_S512x512_S512x2048_S512x2048_1_0_0_1_n_n 512 rfl rfl k
  have el : dot_S512x512_S512x2048_S512x2048_1_0_0_1_n_n.lhsIdx (ix2 p d) ((contrEquiv1 dot_S512x512_S512x2048_S512x2048_1_0_0_1_n_n 512 rfl rfl).symm k) = ix2 p k := funext fun a => Fin.ext (by
    match a with
    | ⟨0, _⟩ => exact up_lhs_0 _ _
    | ⟨1, _⟩ => exact (up_lhs_1 _ _).trans hk)
  have er : dot_S512x512_S512x2048_S512x2048_1_0_0_1_n_n.rhsIdx (ix2 p d) ((contrEquiv1 dot_S512x512_S512x2048_S512x2048_1_0_0_1_n_n 512 rfl rfl).symm k) = ix2 k d := funext fun a => Fin.ext (by
    match a with
    | ⟨0, _⟩ => exact (up_rhs_0 _ _).trans hk
    | ⟨1, _⟩ => exact up_rhs_1 _ _)
  rw [el, er]

/-! ## The hidden layer and the output -/

/-- The hidden layer of every row: the normalised rows against `w`, plus the bias row, clipped below at zero. -/
def hid (v : FVec Ideal S512x2048 .f32) (g b : FVec Ideal S1x2048 .f32) (w : FVec Ideal S2048x512 .bf16)
    (c : FVec Ideal S1x512 .f32) : FVec Ideal S512x512 .f32 :=
  maximumf (addf (matmul dot_S512x2048_S2048x512_S512x512_1_0_0_1_n_n none (truncf .bf16 (normed v g b) bitsLt_bf16_f32) w (constant S512x512 .f32 0x00000000#32))
    (broadcastTo S512x512 c broadcasts_S1x512_S512x512)) (broadcast S512x512 (Scalar.ofBits .f32 0x00000000#32))

theorem hid_apply (v : FVec Ideal S512x2048 .f32) (g b : FVec Ideal S1x2048 .f32) (w : FVec Ideal S2048x512 .bf16)
    (c : FVec Ideal S1x512 .f32) (p j : Fin 512) :
    hid v g b w c (ix2 p j)
      = hidden (fun k => v (ix2 p k)) (fun k => g (ix2 (0 : Fin 1) k)) (fun k => b (ix2 (0 : Fin 1) k))
          (fun j k => w (ix2 k j)) (fun j => c (ix2 (0 : Fin 1) j)) j := by
  show max (matmul dot_S512x2048_S2048x512_S512x512_1_0_0_1_n_n none (truncf .bf16 (normed v g b) bitsLt_bf16_f32) w (constant S512x512 .f32 0x00000000#32) (ix2 p j)
      + broadcastTo S512x512 c broadcasts_S1x512_S512x512 (ix2 p j)) (Ideal.ofBits .f32 0x00000000#32) = _
  rw [down_apply, broadcastTo_1b_ab_apply]
  unfold hidden
  refine congrArg (fun s => max (s + c (ix2 (0 : Fin 1) j)) floor0) (Finset.sum_congr rfl fun k _ => ?_)
  show normed v g b (ix2 p k) * w (ix2 k j) = _
  rw [normed_apply]

/-- The output of every row: the row itself plus the hidden layer against `w` plus the bias row. -/
def outV (h : FVec Ideal S512x512 .bf16) (w : FVec Ideal S512x2048 .bf16) (c : FVec Ideal S1x2048 .f32)
    (x : FVec Ideal S512x2048 .f32) : FVec Ideal S512x2048 .f32 :=
  addf x (addf (matmul dot_S512x512_S512x2048_S512x2048_1_0_0_1_n_n none h w (constant S512x2048 .f32 0x00000000#32))
    (broadcastTo S512x2048 c broadcasts_S1x2048_S512x2048))

theorem outV_apply (h : FVec Ideal S512x512 .bf16) (w : FVec Ideal S512x2048 .bf16) (c : FVec Ideal S1x2048 .f32)
    (x : FVec Ideal S512x2048 .f32) (p : Fin 512) (d : Fin 2048) :
    outV h w c x (ix2 p d) = x (ix2 p d) + ((∑ j : Fin 512, h (ix2 p j) * w (ix2 j d)) + c (ix2 (0 : Fin 1) d)) := by
  show x (ix2 p d) + (matmul dot_S512x512_S512x2048_S512x2048_1_0_0_1_n_n none h w (constant S512x2048 .f32 0x00000000#32) (ix2 p d)
      + broadcastTo S512x2048 c broadcasts_S1x2048_S512x2048 (ix2 p d)) = _
  rw [up_apply, broadcastTo_1b_ab_apply]

/-! ## The kernel's payloads are these stages -/

/-- The value the kernel multiplies by the up weights is the hidden layer of the blocks it loaded (a cast of a
    block to its own shape changes nothing). -/
theorem pay2_eq (x0 : Vec Ideal S512x2048 .f32) (x1 x2 : Vec Ideal S1x2048 .f32) (x3 : Vec Ideal S2048x512 .bf16)
    (x4 : Vec Ideal S1x512 .f32) :
    k0_pay2 (F := Ideal) x0 x1 x2 x3 x4 = truncf .bf16 (hid x0 x1 x2 x3 x4) bitsLt_bf16_f32 := by
  have e : k0_pay2 (F := Ideal) x0 x1 x2 x3 x4
      = truncf .bf16 (hid (shapeCast S512x2048 x0 shapeCasts_S512x2048_S512x2048) (shapeCast S1x2048 x1 shapeCasts_S1x2048_S1x2048)
          (shapeCast S1x2048 x2 shapeCasts_S1x2048_S1x2048) (shapeCast S2048x512 x3 shapeCasts_S2048x512_S2048x512)
          (shapeCast S1x512 x4 shapeCasts_S1x512_S1x512)) bitsLt_bf16_f32 := rfl
  rw [e]
  simp only [shapeCast_self]

/-- The value the kernel stores is the output stage of the hidden layer, the up weights, the bias row and the
    tile's own rows. -/
theorem pay1_eq (h : FVec Ideal S512x512 .bf16) (x5 : Vec Ideal S512x2048 .bf16) (x6 : Vec Ideal S1x2048 .f32)
    (x0 : Vec Ideal S512x2048 .f32) :
    k0_pay1 (F := Ideal) h x5 x6 x0 = outV h x5 x6 x0 := by
  have e : k0_pay1 (F := Ideal) h x5 x6 x0
      = outV h (shapeCast S512x2048 x5 shapeCasts_S512x2048_S512x2048) (shapeCast S1x2048 x6 shapeCasts_S1x2048_S1x2048)
          (shapeCast S512x2048 x0 shapeCasts_S512x2048_S512x2048) := rfl
  rw [e]
  simp only [shapeCast_self]

/-- ONE TILE: the stored value at `(p, d)` is the layer's output at column `d` for row `p` of the tile. -/
theorem tile_apply (x0 : Vec Ideal S512x2048 .f32) (x1 x2 : Vec Ideal S1x2048 .f32) (x3 : Vec Ideal S2048x512 .bf16)
    (x4 : Vec Ideal S1x512 .f32) (x5 : Vec Ideal S512x2048 .bf16) (x6 : Vec Ideal S1x2048 .f32) (p : Fin 512) (d : Fin 2048) :
    k0_pay1 (F := Ideal) (k0_pay2 x0 x1 x2 x3 x4) x5 x6 x0 (ix2 p d) = rows (R := 512) x0 x1 x2 x3 x4 x5 x6 p d := by
  rw [pay1_eq, pay2_eq, outV_apply]
  unfold rows out
  refine congrArg (fun s => x0 (ix2 p d) + (s + x6 (ix2 (0 : Fin 1) d))) (Finset.sum_congr rfl fun j _ => ?_)
  show hid x0 x1 x2 x3 x4 (ix2 p j) * x5 (ix2 j d) = _
  rw [hid_apply]

/-- The same at any entry of the tile. -/
theorem tile_apply' (x0 : Vec Ideal S512x2048 .f32) (x1 x2 : Vec Ideal S1x2048 .f32) (x3 : Vec Ideal S2048x512 .bf16)
    (x4 : Vec Ideal S1x512 .f32) (x5 : Vec Ideal S512x2048 .bf16) (x6 : Vec Ideal S1x2048 .f32) (j : S512x2048.Idx) :
    k0_pay1 (F := Ideal) (k0_pay2 x0 x1 x2 x3 x4) x5 x6 x0 j = rows (R := 512) x0 x1 x2 x3 x4 x5 x6 (j 0) (j 1) := by
  obtain ⟨p, d, rfl⟩ : ∃ (p : Fin 512) (d : Fin 2048), j = ix2 p d := ⟨j 0, j 1, eq_ix2 j⟩
  exact tile_apply x0 x1 x2 x3 x4 x5 x6 p d

end Cert.Adapter.Tile

end
-- ==== Proof.KernelArray.lean ====
/-
  What the kernel's output array holds after all 32 grid points.

  Grid point `t` works on rows `512·t … 512·t + 511` of the `16384 × 2048` input: its input tile is block `t` of the
  rows, the six parameter windows are whole arrays held at block `(0, 0)`, and the tile it writes back is block `t`
  of the output.  Since the layer treats every row on its own, the tile written back is block `t` of ONE function of
  the arrays the kernel is launched on — the layer of each of the 16384 rows — and the 32 blocks tile the output, so
  the output array ends holding that function everywhere.
-/
import proofs.«109701_j18923625906221_2_alg».proof.Proof.Gen.KernelIdeal.Frame
import proofs.«109701_j18923625906221_2_alg».proof.Proof.Tile
import Idealize.ShloMosaic.Lib.Pipeline.Value

set_option maxRecDepth 16384

noncomputable section

namespace Cert.Adapter.Kernel

open Cert.KernelIdeal Cert.KernelIdeal.Gen Idealize.ShloMosaic Idealize.ShloMosaic.TcCoe Idealize.SL.Sem
open Idealize.ShloMosaic.ValueIdx Cert.Adapter
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl

/-- The layer of every row of the launched arrays: what the output array ends holding. -/
abbrev tiled (c : Dev nD) : S16384x2048.Idx → Elt Ideal .f32 := fun i =>
  rows (R := 16384) (V m c main_v0) (V m c main_v5) (V m c main_v6) (V m c main_v2) (V m c main_v7) (V m c main_v4)
    (V m c main_v8) (i 0) (i 1)

/-- The index maps over the grid: the row windows (input and output) sit at block `(t, 0)`, every parameter window
    at block `(0, 0)`. -/
theorem idx_facts : ∀ t : Fin cfg0.N,
    win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- WHAT POINT `t` WRITES BACK is block `t` of the layer of every row. -/
theorem flushed_eq (c : Dev nD) (t : Fin cfg0.N) :
    (dats m 0 c).flushed 7 t = ((cfg0.win 7).blk t).view.read (Elt Ideal) (tiled m c) := by
  show (cfg0.win 7).cut (grid0.coords t) ((dats m 0 c).after 7 t) = _
  rw [after0_7]
  unfold out0_7
  rw [View.canon_unit_zero zeros2]
  simp only [View.ld_unit_zero (S := S512x2048) zeros2, View.ld_unit_zero (S := S1x2048) zeros2,
    View.ld_unit_zero (S := S2048x512) zeros2, View.ld_unit_zero (S := S1x512) zeros2]
  obtain ⟨a00, a01, a70, a71, a10, a11, a20, a21, a30, a31, a40, a41, a50, a51, a60, a61⟩ := idx_facts t
  funext j
  refine (Tile.tile_apply' (iblk m c 0 t) (iblk m c 1 t) (iblk m c 2 t) (iblk m c 3 t) (iblk m c 4 t) (iblk m c 5 t)
    (iblk m c 6 t) j).trans ?_
  rw [View.read_apply]
  show rows _ _ _ _ _ _ _ _ _ = rows _ _ _ _ _ _ _ _ _
  unfold rows
  refine out_congr (fun k => ?_) (fun k => ?_) (fun k => ?_) (fun j' k => ?_) (fun j' => ?_) (fun d' j' => ?_) (fun d' => ?_) ?_
  · show V m c main_v0 (((cfg0.win 0).blk t).view.emb (ix2 (j 0) k)) = _
    exact congrArg (V m c main_v0) (funext fun a => Fin.ext (by
      match a with
      | ⟨0, _⟩ => show win0_0.index t (0 : Fin 2) * 512 + 1 * (j 0).val = win0_7.index t (0 : Fin 2) * 512 + 1 * (j 0).val; omega
      | ⟨1, _⟩ => show win0_0.index t (1 : Fin 2) * 2048 + 1 * k.val = k.val; omega))
  · show V m c main_v5 (((cfg0.win 1).blk t).view.emb (ix2 (0 : Fin 1) k)) = _
    exact congrArg (V m c main_v5) (funext fun a => Fin.ext (by
      match a with
      | ⟨0, _⟩ => show win0_1.index t (0 : Fin 2) * 1 + 1 * 0 = 0; omega
      | ⟨1, _⟩ => show win0_1.index t (1 : Fin 2) * 2048 + 1 * k.val = k.val; omega))
  · show V m c main_v6 (((cfg0.win 2).blk t).view.emb (ix2 (0 : Fin 1) k)) = _
    exact congrArg (V m c main_v6) (funext fun a => Fin.ext (by
      match a with
      | ⟨0, _⟩ => show win0_2.index t (0 : Fin 2) * 1 + 1 * 0 = 0; omega
      | ⟨1, _⟩ => show win0_2.index t (1 : Fin 2) * 2048 + 1 * k.val = k.val; omega))
  · show V m c main_v2 (((cfg0.win 3).blk t).view.emb (ix2 k j')) = _
    exact congrArg (V m c main_v2) (funext fun a => Fin.ext (by
      match a with
      | ⟨0, _⟩ => show win0_3.index t (0 : Fin 2) * 2048 + 1 * k.val = k.val; omega
      | ⟨1, _⟩ => show win0_3.index t (1 : Fin 2) * 512 + 1 * j'.val = j'.val; omega))
  · show V m c main_v7 (((cfg0.win 4).blk t).view.emb (ix2 (0 : Fin 1) j')) = _
    exact congrArg (V m c main_v7) (funext fun a => Fin.ext (by
      match a with
      | ⟨0, _⟩ => show win0_4.index t (0 : Fin 2) * 1 + 1 * 0 = 0; omega
      | ⟨1, _⟩ => show win0_4.index t (1 : Fin 2) * 512 + 1 * j'.val = j'.val; omega))
  · show V m c main_v4 (((cfg0.win 5).blk t).view.emb (ix2 j' d')) = _
    exact congrArg (V m c main_v4) (funext fun a => Fin.ext (by
      match a with
      | ⟨0, _⟩ => show win0_5.index t (0 : Fin 2) * 512 + 1 * j'.val = j'.val; omega
      | ⟨1, _⟩ => show win0_5.index t (1 : Fin 2) * 2048 + 1 * d'.val = d'.val; omega))
  · show V m c main_v8 (((cfg0.win 6).blk t).view.emb (ix2 (0 : Fin 1) d')) = _
    exact congrArg (V m c main_v8) (funext fun a => Fin.ext (by
      match a with
      | ⟨0, _⟩ => show win0_6.index t (0 : Fin 2) * 1 + 1 * 0 = 0; omega
      | ⟨1, _⟩ => show win0_6.index t (1 : Fin 2) * 2048 + 1 * d'.val = d'.val; omega))
  · exact Fin.ext (by show (j 1).val = win0_7.index t (1 : Fin 2) * 2048 + 1 * (j 1).val; omega)

/-- An index of the output array is in point `t`'s block iff each coordinate is in the block's range on its axis. -/
theorem mem_blk (t : Fin cfg0.N) (i : S16384x2048.Idx) :
    i ∈ ((cfg0.win 7).blk t).view.set ↔ ∀ a : Fin 2, win0_7.index t a * S512x2048.size a ≤ (i a).val
      ∧ (i a).val < win0_7.index t a * S512x2048.size a + S512x2048.size a := by
  show i ∈ ((View.whole main_v9).slice (win0_7.rect t)).set ↔ _
  rw [View.set_slice_whole, Rect.mem_set_unit]
  exact Iff.rfl

/-- Row `r` of the output lies in the block of point `r / 512`: the 32 blocks tile the array. -/
theorem cover (i : S16384x2048.Idx) :
    ∃ t : Fin cfg0.N, (cfg0.win 7).flush t = true ∧ i ∈ ((cfg0.win 7).blk t).view.set := by
  have hi0 : (i 0).val < 16384 := (i 0).isLt
  have hi1 : (i 1).val < 2048 := (i 1).isLt
  have hN : cfg0.N = 32 := N_0
  have hlt : (i 0).val / 512 < cfg0.N := by omega
  obtain ⟨-, -, a70, a71, -⟩ := idx_facts ⟨(i 0).val / 512, hlt⟩
  have a70' : win0_7.index ⟨(i 0).val / 512, hlt⟩ (0 : Fin 2) = (i 0).val / 512 := a70
  refine ⟨⟨(i 0).val / 512, hlt⟩, flush0_7 _, ?_⟩
  rw [mem_blk]
  intro a
  match a with
  | ⟨0, _⟩ =>
    show win0_7.index ⟨(i 0).val / 512, hlt⟩ (0 : Fin 2) * 512 ≤ (i 0).val
      ∧ (i 0).val < win0_7.index ⟨(i 0).val / 512, hlt⟩ (0 : Fin 2) * 512 + 512
    omega
  | ⟨1, _⟩ =>
    show win0_7.index ⟨(i 0).val / 512, hlt⟩ (1 : Fin 2) * 2048 ≤ (i 1).val
      ∧ (i 1).val < win0_7.index ⟨(i 0).val / 512, hlt⟩ (1 : Fin 2) * 2048 + 2048
    omega

/-- THE OUTPUT ARRAY after the run is the layer of every row of the launched arrays. -/
theorem final (c : Dev nD) : (dats m 0 c).arrAt 7 cfg0.N = tiled m c :=
  (dats m 0 c).arrAt_eq_of_cover 7 (tiled m c) (fun t _ => flushed_eq m c t) cover

end Cert.Adapter.Kernel

end
-- ==== Proof.KernelRun.lean ====
/-
  The kernel's run, read: its result is the layer of every row of the batch.

  Before the grid runs, the host lays the arguments out as the grid wants them: the batch `4 × 4096 × 2048` as
  `16384` rows (row `(b, s)` becomes row `4096·b + s`), the two weight matrices transposed and narrowed to sixteen
  bits (the identity on the extended reals), the three vectors and the down bias as one-row matrices.  After the
  grid the host views the `16384 × 2048` output as `4 × 4096 × 2048` again.  Reading each of these at an index, the
  layer of row `4096·b + s` of the laid-out arrays is the layer of row `(b, s)` of the arguments.
-/
import proofs.«109701_j18923625906221_2_alg».proof.Proof.Gen.KernelIdeal.Frame
import proofs.«109701_j18923625906221_2_alg».proof.Proof.KernelArray
import Idealize.ShloMosaic.Lib.Pipeline.Value
import Idealize.ShloMosaic.Lib.StableHlo.Run
import Idealize.ShloMosaic.Lib.ValueLayout

set_option maxRecDepth 16384

noncomputable section

namespace Cert.Adapter.Kernel

open Cert.KernelIdeal Cert.KernelIdeal.Gen Idealize.ShloMosaic Idealize.ShloMosaic.TcCoe Idealize.SL.Sem
open Idealize.ShloMosaic.StableHlo Idealize.ShloMosaic.ValueIdx Cert.Adapter
open Idealize.ShloMosaic.Pipeline (Dat)

variable (m : (ℓ : Loc nD τ sig) → Buf (Elt Ideal) ℓ) (ρ : Dev nD → PrngReg)

/-! ## The arrays the grid is launched on -/

theorem V_v0 (c : Dev nD) : (V m c main_v0 : S16384x2048.Idx → Elt Ideal .f32)
    = shapeCast S16384x2048 (m ((c : Thread nD τ).loc main_arg0)) shapeCasts_S4x4096x2048_S16384x2048 := by
  show StableHlo.after hostOps0 (fun b => m (c, b)) (Proc.devRef .tc main_v0) = _
  after_results <;> rfl

theorem V_v2 (c : Dev nD) : (V m c main_v2 : S2048x512.Idx → Elt Ideal .bf16)
    = truncf (F := Ideal) .bf16 (transpose S2048x512 [1, 0] (m ((c : Thread nD τ).loc main_arg3)) transposes_S512x2048_S2048x512_1_0) bitsLt_bf16_f32 := by
  show StableHlo.after hostOps0 (fun b => m (c, b)) (Proc.devRef .tc main_v2) = _
  after_results <;> rfl

theorem V_v4 (c : Dev nD) : (V m c main_v4 : S512x2048.Idx → Elt Ideal .bf16)
    = truncf (F := Ideal) .bf16 (transpose S512x2048 [1, 0] (m ((c : Thread nD τ).loc main_arg5)) transposes_S2048x512_S512x2048_1_0) bitsLt_bf16_f32 := by
  show StableHlo.after hostOps0 (fun b => m (c, b)) (Proc.devRef .tc main_v4) = _
  after_results <;> rfl

theorem V_v5 (c : Dev nD) : (V m c main_v5 : S1x2048.Idx → Elt Ideal .f32)
    = shapeCast S1x2048 (m ((c : Thread nD τ).loc main_arg1)) shapeCasts_S2048_S1x2048 := by
  show StableHlo.after hostOps0 (fun b => m (c, b)) (Proc.devRef .tc main_v5) = _
  after_results <;> rfl

theorem V_v6 (c : Dev nD) : (V m c main_v6 : S1x2048.Idx → Elt Ideal .f32)
    = shapeCast S1x2048 (m ((c : Thread nD τ).loc main_arg2)) shapeCasts_S2048_S1x2048 := by
  show StableHlo.after hostOps0 (fun b => m (c, b)) (Proc.devRef .tc main_v6) = _
  after_results <;> rfl

theorem V_v7 (c : Dev nD) : (V m c main_v7 : S1x512.Idx → Elt Ideal .f32)
    = shapeCast S1x512 (m ((c : Thread nD τ).loc main_arg4)) shapeCasts_S512_S1x512 := by
  show StableHlo.after hostOps0 (fun b => m (c, b)) (Proc.devRef .tc main_v7) = _
  after_results <;> rfl

theorem V_v8 (c : Dev nD) : (V m c main_v8 : S1x2048.Idx → Elt Ideal .f32)
    = shapeCast S1x2048 (m ((c : Thread nD τ).loc main_arg6)) shapeCasts_S2048_S1x2048 := by
  show StableHlo.after hostOps0 (fun b => m (c, b)) (Proc.devRef .tc main_v8) = _
  after_results <;> rfl

/-! ## Each of them read at an index -/

/-- Row `4096·b + s` of the laid-out batch is row `(b, s)` of the batch. -/
theorem x_apply (c : Dev nD) (b : Fin 4) (s : Fin 4096) (k : Fin 2048) (h : b.val * 4096 + s.val < 16384) :
    V m c main_v0 (ix2 (⟨b.val * 4096 + s.val, h⟩ : Fin 16384) k) = (m ((c : Thread nD τ).loc main_arg0)) (ix3 b s k) :=
  (congrFun (V_v0 m c) _).trans (shapeCast_apply _ _ _ _ (by
    show (S4x4096x2048.rowMajor (ix3 b s k)).val = (S16384x2048.rowMajor (ix2 (⟨b.val * 4096 + s.val, h⟩ : Fin 16384) k)).val
    rw [Shape.rowMajor_val_three, Shape.rowMajor_val_two]
    rfl))

theorem gamma_apply (c : Dev nD) (k : Fin 2048) : V m c main_v5 (ix2 (0 : Fin 1) k) = (m ((c : Thread nD τ).loc main_arg1)) (ix1 k) :=
  (congrFun (V_v5 m c) _).trans (shapeCast_a_1a_apply _ _ _ _)

theorem beta_apply (c : Dev nD) (k : Fin 2048) : V m c main_v6 (ix2 (0 : Fin 1) k) = (m ((c : Thread nD τ).loc main_arg2)) (ix1 k) :=
  (congrFun (V_v6 m c) _).trans (shapeCast_a_1a_apply _ _ _ _)

theorem bdown_apply (c : Dev nD) (j : Fin 512) : V m c main_v7 (ix2 (0 : Fin 1) j) = (m ((c : Thread nD τ).loc main_arg4)) (ix1 j) :=
  (congrFun (V_v7 m c) _).trans (shapeCast_a_1a_apply _ _ _ _)

theorem bup_apply (c : Dev nD) (d : Fin 2048) : V m c main_v8 (ix2 (0 : Fin 1) d) = (m ((c : Thread nD τ).loc main_arg6)) (ix1 d) :=
  (congrFun (V_v8 m c) _).trans (shapeCast_a_1a_apply _ _ _ _)

/-- The down weights as launched, at `(k, j)`, are the down weights at `(j, k)`. -/
theorem wdown_apply (c : Dev nD) (k : Fin 2048) (j : Fin 512) : V m c main_v2 (ix2 k j) = (m ((c : Thread nD τ).loc main_arg3)) (ix2 j k) :=
  (congrFun (V_v2 m c) _).trans (transpose_ix2_apply _ _ _ _)

/-- The up weights as launched, at `(j, d)`, are the up weights at `(d, j)`. -/
theorem wup_apply (c : Dev nD) (j : Fin 512) (d : Fin 2048) : V m c main_v4 (ix2 j d) = (m ((c : Thread nD τ).loc main_arg5)) (ix2 d j) :=
  (congrFun (V_v4 m c) _).trans (transpose_ix2_apply _ _ _ _)

/-! ## The result -/

/-- The kernel's result: the layer of row `(b, s)` of the batch at every entry `(b, s, d)`. -/
abbrev result (c : Dev nD) : S4x4096x2048.Idx → Elt Ideal .f32 := fun i =>
  layer (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (i 0) (i 1) (i 2)

/-- What the host's closing reshape leaves in the result buffer. -/
theorem tail_eq (c : Dev nD) :
    (Pipeline.afterTail₀ cfgs (dats m) 0 (V0 m) [hostOps1] c main_v10 : S4x4096x2048.Idx → Elt Ideal .f32) = result m c := by
  unfold Pipeline.afterTail₀
  show StableHlo.after hostOps1 _ (Proc.devRef .tc main_v10) = _
  after_results
  have e := Pipeline.withArrays_arr (cfgs 0).spec launch0.win.arr_inj c (V0 m c) (fun w => (dats m 0 c).arrAt w (cfgs 0).N) (7 : Fin 8)
  funext i
  obtain ⟨b, s, d, rfl⟩ : ∃ (b : Fin 4) (s : Fin 4096) (d : Fin 2048), i = ix3 b s d := ⟨i 0, i 1, i 2, eq_ix3 i⟩
  have hr : b.val * 4096 + s.val < 16384 := by have := b.isLt; have := s.isLt; omega
  refine (congrFun (congrArg (fun A => shapeCast S4x4096x2048 A shapeCasts_S16384x2048_S4x4096x2048) (e.trans (final m c))) (ix3 b s d)).trans ?_
  refine (shapeCast_apply (tiled m c) shapeCasts_S16384x2048_S4x4096x2048 (ix3 b s d) (ix2 (⟨b.val * 4096 + s.val, hr⟩ : Fin 16384) d) (by
    show (S16384x2048.rowMajor (ix2 (⟨b.val * 4096 + s.val, hr⟩ : Fin 16384) d)).val = (S4x4096x2048.rowMajor (ix3 b s d)).val
    rw [Shape.rowMajor_val_three, Shape.rowMajor_val_two]
    rfl)).trans ?_
  show rows _ _ _ _ _ _ _ _ _ = layer _ _ _ _ _ _ _ _ _ _
  unfold rows layer
  exact out_congr (fun k => x_apply m c b s k hr) (fun k => gamma_apply m c k) (fun k => beta_apply m c k)
    (fun j k => wdown_apply m c k j) (fun j => bdown_apply m c j) (fun d' j => wup_apply m c j d') (fun d' => bup_apply m c d') rfl

/-- THE KERNEL'S RUN: every weakly fair execution ends with the result buffer at the layer of every row of the
    batch and the seven arguments unchanged. -/
theorem run : θ_run defs (onTc (τ := τ) (main (F := Ideal))) ⟨m, fun _ => 0, ρ⟩ (fun r => ∀ c : Dev nD,
      r.2.mem ((c.tc : Thread nD τ).loc main_v10) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v10 (Pipeline.mem_restRefs_of main_v10 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.Adapter.Kernel

end
-- ==== Proof.RefSpec.lean ====
/-
  The reference computes the layer of `Spec.lean`, row by row.

  The reference works on the batch as a `4 × 4096 × 2048` array.  Each of its operations either acts entry by entry,
  or sums along the last axis, or spreads a value computed per row (or a parameter vector) over an axis.  Read at
  entry `(b, s, d)`, the chain of operations is: the mean and the variance of row `(b, s)`, the normalised row, its
  product with the rows of the down weights plus the bias clipped at zero, the product of that with the rows of the
  up weights plus the bias, and the row's own entry added.  A sum the reference starts from a zero word is the bare
  sum.
-/
import proofs.«109701_j18923625906221_2_alg».proof.Proof.Gen.ReferenceIdeal.Read
import proofs.«109701_j18923625906221_2_alg».proof.Proof.Spec

noncomputable section

namespace Cert.Adapter.Ref

open Cert.ReferenceIdeal Cert.ReferenceIdeal.Gen Cert.ReferenceIdeal.Read Idealize.ShloMosaic Idealize.ShloMosaic.ValueIdx Cert.Adapter

/-! ## Row statistics -/

/-- The reference's mean, kept with a unit last axis, at row `(b, s)`. -/
theorem mean_apply (x0 : (⟨S4x4096x2048, .f32⟩ : BufTy).Contents (Elt Ideal)) (b : Fin 4) (s : Fin 4096) (u : Fin 1) :
    val_main_v3 (F := Ideal) x0 (ix3 b s u) = mean (fun k => x0 (ix3 b s k)) := by
  rw [val_main_v3_apply, val_main_v1_apply, val_main_v0_apply, val_main_v2_apply, val_main_cst_0_apply, val_main_cst_apply]
  simp only [Ideal.hostDivf_def, Ideal.ofBits_def, Ideal.ofBits_zero_f32, zero_add]
  unfold mean width
  refine congrArg (fun t => Ideal.div t _) (Finset.sum_congr rfl fun k _ => congrArg x0 ?_)
  exact funext fun a => Fin.ext (by match a with | ⟨0, _⟩ => rfl | ⟨1, _⟩ => rfl | ⟨2, _⟩ => rfl)

/-- An entry less its row's mean (the reference computes this twice; both are this). -/
theorem centred_apply (x0 : (⟨S4x4096x2048, .f32⟩ : BufTy).Contents (Elt Ideal)) (b : Fin 4) (s : Fin 4096) (d : Fin 2048) :
    val_main_v5 (F := Ideal) x0 (ix3 b s d) = x0 (ix3 b s d) - mean (fun k => x0 (ix3 b s k)) := by
  have e : idx_main_v4 (ix3 b s d) = ix3 b s (0 : Fin 1) := funext fun a => Fin.ext (by match a with | ⟨0, _⟩ => rfl | ⟨1, _⟩ => rfl | ⟨2, _⟩ => rfl)
  rw [val_main_v5_apply, val_main_v4_apply, e, mean_apply]
  rfl

theorem centred'_apply (x0 : (⟨S4x4096x2048, .f32⟩ : BufTy).Contents (Elt Ideal)) (b : Fin 4) (s : Fin 4096) (d : Fin 2048) :
    val_main_v12 (F := Ideal) x0 (ix3 b s d) = x0 (ix3 b s d) - mean (fun k => x0 (ix3 b s k)) := by
  have e : idx_main_v11 (ix3 b s d) = ix3 b s (0 : Fin 1) := funext fun a => Fin.ext (by match a with | ⟨0, _⟩ => rfl | ⟨1, _⟩ => rfl | ⟨2, _⟩ => rfl)
  rw [val_main_v12_apply, val_main_v11_apply, e, mean_apply]
  rfl

/-- The reference's variance, kept with a unit last axis, at row `(b, s)`. -/
theorem var_apply (x0 : (⟨S4x4096x2048, .f32⟩ : BufTy).Contents (Elt Ideal)) (b : Fin 4) (s : Fin 4096) (u : Fin 1) :
    val_main_v10 (F := Ideal) x0 (ix3 b s u) = var (fun k => x0 (ix3 b s k)) := by
  rw [val_main_v10_apply, val_main_v8_apply, val_main_v7_apply, val_main_v9_apply, val_main_cst_2_apply, val_main_cst_1_apply]
  simp only [Ideal.hostDivf_def, Ideal.ofBits_def, Ideal.ofBits_zero_f32, zero_add]
  unfold var width
  refine congrArg (fun t => Ideal.div t _) (Finset.sum_congr rfl fun k _ => ?_)
  have e : idx_main_v7 (idx_main_v8 (ix3 b s u)) k = ix3 b s k := funext fun a => Fin.ext (by match a with | ⟨0, _⟩ => rfl | ⟨1, _⟩ => rfl | ⟨2, _⟩ => rfl)
  rw [e, val_main_v6_apply, centred_apply]
  rfl

/-! ## The normalised row -/

theorem norm_apply (x0 : (⟨S4x4096x2048, .f32⟩ : BufTy).Contents (Elt Ideal)) (x1 x2 : (⟨S2048, .f32⟩ : BufTy).Contents (Elt Ideal)) (b : Fin 4) (s : Fin 4096) (d : Fin 2048) :
    val_main_v23 (F := Ideal) x0 x1 x2 (ix3 b s d)
      = norm (fun k => x0 (ix3 b s k)) (fun k => x1 (ix1 k)) (fun k => x2 (ix1 k)) d := by
  have e16 : idx_main_v16 (ix3 b s d) = ix3 b s (0 : Fin 1) := funext fun a => Fin.ext (by match a with | ⟨0, _⟩ => rfl | ⟨1, _⟩ => rfl | ⟨2, _⟩ => rfl)
  have e19 : idx_main_v18 (idx_main_v19 (ix3 b s d)) = ix1 d := funext fun a => Fin.ext (by match a with | ⟨0, _⟩ => rfl)
  have e22 : idx_main_v21 (idx_main_v22 (ix3 b s d)) = ix1 d := funext fun a => Fin.ext (by match a with | ⟨0, _⟩ => rfl)
  rw [val_main_v23_apply, val_main_v20_apply, val_main_v17_apply, centred'_apply, val_main_v16_apply, e16,
    val_main_v15_apply, val_main_v14_apply, var_apply, val_main_v13_apply, val_main_cst_3_apply,
    val_main_v19_apply, val_main_v18_apply, e19, val_main_v22_apply, val_main_v21_apply, e22]
  rfl

/-! ## The hidden layer -/

theorem hidden_apply (x0 : (⟨S4x4096x2048, .f32⟩ : BufTy).Contents (Elt Ideal)) (x1 x2 : (⟨S2048, .f32⟩ : BufTy).Contents (Elt Ideal)) (x3 : (⟨S512x2048, .f32⟩ : BufTy).Contents (Elt Ideal)) (x4 : (⟨S512, .f32⟩ : BufTy).Contents (Elt Ideal)) (b : Fin 4) (s : Fin 4096) (j : Fin 512) :
    val_main_v28 (F := Ideal) x0 x1 x2 x3 x4 (ix3 b s j)
      = hidden (fun k => x0 (ix3 b s k)) (fun k => x1 (ix1 k)) (fun k => x2 (ix1 k)) (fun j k => x3 (ix2 j k))
          (fun j => x4 (ix1 j)) j := by
  have e26 : idx_main_v25 (idx_main_v26 (ix3 b s j)) = ix1 j := funext fun a => Fin.ext (by match a with | ⟨0, _⟩ => rfl)
  rw [val_main_v28_apply, val_main_v27_apply, val_main_v24_apply, val_main_v26_apply, val_main_v25_apply, e26,
    val_main_call0_v0_apply, val_main_call0_cst_apply]
  simp only [Ideal.addf_def, Ideal.maximumf_def, Ideal.ofBits_def]
  unfold hidden floor0
  refine congrArg (fun t => max (t + x4 (ix1 j)) _) (Finset.sum_congr rfl fun k _ => ?_)
  have el : lidx_main_v24 (ix3 b s j) k = ix3 b s k := funext fun a => Fin.ext (by match a with | ⟨0, _⟩ => rfl | ⟨1, _⟩ => rfl | ⟨2, _⟩ => rfl)
  have er : ridx_main_v24 (ix3 b s j) k = ix2 j k := funext fun a => Fin.ext (by match a with | ⟨0, _⟩ => rfl | ⟨1, _⟩ => rfl)
  rw [el, er, norm_apply]

/-! ## The output -/

/-- THE REFERENCE at entry `(b, s, d)` is the layer's output at column `d` for row `(b, s)`. -/
theorem out_apply (x0 : (⟨S4x4096x2048, .f32⟩ : BufTy).Contents (Elt Ideal)) (x1 x2 : (⟨S2048, .f32⟩ : BufTy).Contents (Elt Ideal)) (x3 : (⟨S512x2048, .f32⟩ : BufTy).Contents (Elt Ideal)) (x4 : (⟨S512, .f32⟩ : BufTy).Contents (Elt Ideal)) (x5 : (⟨S2048x512, .f32⟩ : BufTy).Contents (Elt Ideal)) (x6 : (⟨S2048, .f32⟩ : BufTy).Contents (Elt Ideal)) (b : Fin 4) (s : Fin 4096) (d : Fin 2048) :
    val_main_v33 (F := Ideal) x0 x1 x2 x3 x4 x5 x6 (ix3 b s d) = layer x0 x1 x2 x3 x4 x5 x6 b s d := by
  have e31 : idx_main_v30 (idx_main_v31 (ix3 b s d)) = ix1 d := funext fun a => Fin.ext (by match a with | ⟨0, _⟩ => rfl)
  rw [val_main_v33_apply, val_main_v32_apply, val_main_v29_apply, val_main_v31_apply, val_main_v30_apply, e31]
  simp only [Ideal.addf_def]
  unfold layer out
  refine congrArg (fun t => x0 (ix3 b s d) + (t + x6 (ix1 d))) (Finset.sum_congr rfl fun j _ => ?_)
  have el : lidx_main_v29 (ix3 b s d) j = ix3 b s j := funext fun a => Fin.ext (by match a with | ⟨0, _⟩ => rfl | ⟨1, _⟩ => rfl | ⟨2, _⟩ => rfl)
  have er : ridx_main_v29 (ix3 b s d) j = ix2 d j := funext fun a => Fin.ext (by match a with | ⟨0, _⟩ => rfl | ⟨1, _⟩ => rfl)
  rw [el, er, hidden_apply]

end Cert.Adapter.Ref

end
-- ==== Proof.lean ====
/-
  An adapter layer — LayerNorm, a projection down to 512 features, a clip at zero, a projection back up to 2048
  features, and the residual added — computed tile by tile against the same layer computed on the whole batch.

  On the extended reals the two programs are one function of the seven arguments.  Every row of the batch is
  treated on its own, and both programs apply to a row the same operations in the same order with the same three
  constants (2048, the small constant under the square root, and zero), so no algebraic law beyond re-indexing is
  needed and finiteness of the inputs is never used:
    * the tiled program sees the batch as 16384 rows and works on 512 of them per grid point; a block of rows of
      the layer's output is the layer of that block of rows (`Proof/Tile.lean`, `Proof/KernelArray.lean`);
    * it holds the two weight matrices transposed, so its matrix products and the reference's contractions sum
      the same products over the same index (`Proof/Tile.lean`, `Proof/RefSpec.lean`);
    * narrowing an operand to sixteen bits before a product is the identity on the extended reals;
    * a sum started from zero is the bare sum.
  `Proof/Spec.lean` states the layer of one row; `Proof/KernelRun.lean` and `Proof/RefSpec.lean` read the two
  programs' results as that layer at entry `(b, s, d)`.

  The three frames: the two tiled programs' are the generated frames of their one grid; the reference's is its
  run with the result forgotten.  The tiled program's idealization rewrote nothing, so that conjunct is trivial.
-/
import proofs.«109701_j18923625906221_2_alg».proof.Defs
import proofs.«109701_j18923625906221_2_alg».proof.Proof.Gen.Kernel
import proofs.«109701_j18923625906221_2_alg».proof.Proof.Gen.Kernel.Skeleton
import proofs.«109701_j18923625906221_2_alg».proof.Proof.Gen.Kernel.Launch
import proofs.«109701_j18923625906221_2_alg».proof.Proof.Gen.Kernel.Points
import proofs.«109701_j18923625906221_2_alg».proof.Proof.Gen.Kernel.Frame
import proofs.«109701_j18923625906221_2_alg».proof.Proof.Gen.KernelIdeal
import proofs.«109701_j18923625906221_2_alg».proof.Proof.Gen.KernelIdeal.Skeleton
import proofs.«109701_j18923625906221_2_alg».proof.Proof.Gen.KernelIdeal.Launch
import proofs.«109701_j18923625906221_2_alg».proof.Proof.Gen.KernelIdeal.Points
import proofs.«109701_j18923625906221_2_alg».proof.Proof.Gen.KernelIdeal.Frame
import proofs.«109701_j18923625906221_2_alg».proof.Proof.Gen.ReferenceIdeal
import proofs.«109701_j18923625906221_2_alg».proof.Proof.Gen.Pre_finite_inputs
import proofs.«109701_j18923625906221_2_alg».proof.Proof.Gen.ReferenceIdeal.Run
import proofs.«109701_j18923625906221_2_alg».proof.Proof.Gen.ReferenceIdeal.Read
import proofs.«109701_j18923625906221_2_alg».proof.Proof.KernelRun
import proofs.«109701_j18923625906221_2_alg».proof.Proof.RefSpec
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the seven arguments, the tiled program ends with the result buffer at the layer
    of every row of its batch, and the reference with its result buffer at the same layer of every row of its own
    batch: the same array. -/
theorem algebraic : Cert.algebraic_KernelIdeal_ReferenceIdeal := by
  intro m ρ m' ρ' _ hagree
  refine ⟨fun c => Cert.Adapter.Kernel.result m c, Cert.Adapter.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, (hagree c).1, (hagree c).2.1, (hagree c).2.2.1, (hagree c).2.2.2.1,
    (hagree c).2.2.2.2.1, (hagree c).2.2.2.2.2.1, (hagree c).2.2.2.2.2.2]
  funext i
  obtain ⟨b, s, d, rfl⟩ : ∃ (b : Fin 4) (s : Fin 4096) (d : Fin 2048), i = ix3 b s d := ⟨i 0, i 1, i 2, eq_ix3 i⟩
  exact Cert.Adapter.Ref.out_apply _ _ _ _ _ _ _ b s d

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
